-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x6 : Shape := ⟨2, ![262144, 6]⟩
abbrev S6x64 : Shape := ⟨2, ![6, 64]⟩
abbrev S262144x6x64 : Shape := ⟨3, ![262144, 6, 64]⟩
abbrev S_ : Shape := ⟨0, ![]⟩

class Facts : Prop where
  bcast_S_S262144x6 : S_.BroadcastsInDim S262144x6 (![] : Fin 0 → Fin S262144x6.rank)
  reducesTo_S262144x6_S_d0_1 : S262144x6.ReducesTo [0, 1] S_
  h_S_ : 0 < S_.numel
  bcast_S_S6x64 : S_.BroadcastsInDim S6x64 (![] : Fin 0 → Fin S6x64.rank)
  reducesTo_S6x64_S_d0_1 : S6x64.ReducesTo [0, 1] S_
  bcast_S_S262144x6x64 : S_.BroadcastsInDim S262144x6x64 (![] : Fin 0 → Fin S262144x6x64.rank)
  reducesTo_S262144x6x64_S_d0_1_2 : S262144x6x64.ReducesTo [0, 1, 2] S_

variable [Facts]

def fn_part1 {F : FTy → Type} [FloatOps F] (main_v13 : IVec S_ 1) (main_v16 : IVec S262144x6x64 1) : IVec S_ 1 :=
  let main_c_5 : IVec S_ 1 := constantI S_ 1 1#1
  let main_v17 : IVec S_ 1 := (fun x v => Host.reduce IntOp.andi x v reducesTo_S262144x6x64_S_d0_1_2 h_S_) main_v16 main_c_5
  let main_v18 : IVec S_ 1 := andi main_v13 main_v17
  main_v18

def fn {F : FTy → Type} [FloatOps F] (main_arg0 : FVec F S262144x6 .f32) (main_arg1 : FVec F S6x64 .f32) (main_arg2 : FVec F S6x64 .f32) (main_arg3 : FVec F S262144x6x64 .f32) : IVec S_ 1 :=
  let main_v0 : FVec F S262144x6 .f32 := Host.absf main_arg0
  let main_cst : FVec F S_ .f32 := constant S_ .f32 0x7F800000#32
  let main_v1 : FVec F S262144x6 .f32 := broadcastInDim S262144x6 ![] bcast_S_S262144x6 main_cst
  let main_v2 : IVec S262144x6 1 := cmpf .olt main_v0 main_v1
  let main_c : IVec S_ 1 := constantI S_ 1 1#1
  let main_v3 : IVec S_ 1 := (fun x v => Host.reduce IntOp.andi x v reducesTo_S262144x6_S_d0_1 h_S_) main_v2 main_c
  let main_v4 : FVec F S6x64 .f32 := Host.absf main_arg1
  let main_cst_0 : FVec F S_ .f32 := constant S_ .f32 0x7F800000#32
  let main_v5 : FVec F S6x64 .f32 := broadcastInDim S6x64 ![] bcast_S_S6x64 main_cst_0
  let main_v6 : IVec S6x64 1 := cmpf .olt main_v4 main_v5
  let main_c_1 : IVec S_ 1 := constantI S_ 1 1#1
  let main_v7 : IVec S_ 1 := (fun x v => Host.reduce IntOp.andi x v reducesTo_S6x64_S_d0_1 h_S_) main_v6 main_c_1
  let main_v8 : IVec S_ 1 := andi main_v3 main_v7
  let main_v9 : FVec F S6x64 .f32 := Host.absf main_arg2
  let main_cst_2 : FVec F S_ .f32 := constant S_ .f32 0x7F800000#32
  let main_v10 : FVec F S6x64 .f32 := broadcastInDim S6x64 ![] bcast_S_S6x64 main_cst_2
  let main_v11 : IVec S6x64 1 := cmpf .olt main_v9 main_v10
  let main_c_3 : IVec S_ 1 := constantI S_ 1 1#1
  let main_v12 : IVec S_ 1 := (fun x v => Host.reduce IntOp.andi x v reducesTo_S6x64_S_d0_1 h_S_) main_v11 main_c_3
  let main_v13 : IVec S_ 1 := andi main_v8 main_v12
  let main_v14 : FVec F S262144x6x64 .f32 := Host.absf main_arg3
  let main_cst_4 : FVec F S_ .f32 := constant S_ .f32 0x7F800000#32
  let main_v15 : FVec F S262144x6x64 .f32 := broadcastInDim S262144x6x64 ![] bcast_S_S262144x6x64 main_cst_4
  let main_v16 : IVec S262144x6x64 1 := cmpf .olt main_v14 main_v15
  fn_part1 (F := F) main_v13 main_v16
-- ==== Kernel.lean ====
abbrev S262144x6 : Shape := ⟨2, ![262144, 6]⟩
abbrev S6x64 : Shape := ⟨2, ![6, 64]⟩
abbrev S262144x6x64 : Shape := ⟨3, ![262144, 6, 64]⟩
abbrev S6 : Shape := ⟨1, ![6]⟩
abbrev S384 : Shape := ⟨1, ![384]⟩
abbrev S1x384 : Shape := ⟨2, ![1, 384]⟩
abbrev S262144x384 : Shape := ⟨2, ![262144, 384]⟩
abbrev S2048x6 : Shape := ⟨2, ![2048, 6]⟩
abbrev S2048x384 : Shape := ⟨2, ![2048, 384]⟩
abbrev S2048x1 : Shape := ⟨2, ![2048, 1]⟩
abbrev S2048x64 : Shape := ⟨2, ![2048, 64]⟩

abbrev nBuf : Space → Nat
  | .hbm => 16
  | .vmem => 10
  | .smem => 0
  | _ => 0

abbrev bufTy : (tb : Table) → Fin (tcTables nBuf tb) → BufTy
  | .hbm, ⟨0, _⟩ => ⟨S262144x6, .f32⟩
  | .hbm, ⟨1, _⟩ => ⟨S6x64, .f32⟩
  | .hbm, ⟨2, _⟩ => ⟨S6x64, .f32⟩
  | .hbm, ⟨3, _⟩ => ⟨S262144x6x64, .f32⟩
  | .hbm, ⟨4, _⟩ => ⟨S6, .f32⟩
  | .hbm, ⟨5, _⟩ => ⟨S6, .f32⟩
  | .hbm, ⟨6, _⟩ => ⟨S6x64, .f32⟩
  | .hbm, ⟨7, _⟩ => ⟨S384, .f32⟩
  | .hbm, ⟨8, _⟩ => ⟨S1x384, .f32⟩
  | .hbm, ⟨9, _⟩ => ⟨S6x64, .f32⟩
  | .hbm, ⟨10, _⟩ => ⟨S384, .f32⟩
  | .hbm, ⟨11, _⟩ => ⟨S1x384, .f32⟩
  | .hbm, ⟨12, _⟩ => ⟨S1x384, .f32⟩
  | .hbm, ⟨13, _⟩ => ⟨S1x384, .f32⟩
  | .hbm, ⟨14, _⟩ => ⟨S262144x384, .f32⟩
  | .hbm, ⟨15, _⟩ => ⟨S262144x384, .f32⟩
  | .local _ .vmem, ⟨0, _⟩ => ⟨S2048x6, .f32⟩
  | .local _ .vmem, ⟨1, _⟩ => ⟨S2048x6, .f32⟩
  | .local _ .vmem, ⟨2, _⟩ => ⟨S1x384, .f32⟩
  | .local _ .vmem, ⟨3, _⟩ => ⟨S1x384, .f32⟩
  | .local _ .vmem, ⟨4, _⟩ => ⟨S1x384, .f32⟩
  | .local _ .vmem, ⟨5, _⟩ => ⟨S1x384, .f32⟩
  | .local _ .vmem, ⟨6, _⟩ => ⟨S2048x384, .f32⟩
  | .local _ .vmem, ⟨7, _⟩ => ⟨S2048x384, .f32⟩
  | .local _ .vmem, ⟨8, _⟩ => ⟨S2048x384, .f32⟩
  | .local _ .vmem, ⟨9, _⟩ => ⟨S2048x384, .f32⟩
  | _, _ => ⟨S262144x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x6 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S6_S6x64_0 : S6.BroadcastsInDim S6x64 (![0] : Fin 1 → Fin S6x64.rank)
  shapeCasts_S6x64_S384 : S6x64.ShapeCasts S384
  shapeCasts_S384_S1x384 : S384.ShapeCasts S1x384
  shapeCasts_S6x64_S1x384 : S6x64.ShapeCasts S1x384
  shapeCasts_S262144x6x64_S262144x384 : S262144x6x64.ShapeCasts S262144x384
  inb_S2048x6_S2048x6_0_0 : ∀ a, (![0, 0] : Fin 2 → Nat) a + S2048x6.size a ≤ S2048x6.size a
  h_S2048x6 : 0 < S2048x6.numel
  inb_S1x384_S1x384_0_0 : ∀ a, (![0, 0] : Fin 2 → Nat) a + S1x384.size a ≤ S1x384.size a
  h_S1x384 : 0 < S1x384.numel
  shapeCasts_S1x384_S1x384 : S1x384.ShapeCasts S1x384
  inb_S2048x384_S2048x384_0_0 : ∀ a, (![0, 0] : Fin 2 → Nat) a + S2048x384.size a ≤ S2048x384.size a
  h_S2048x384 : 0 < S2048x384.numel
  shapeCasts_S2048x384_S2048x384 : S2048x384.ShapeCasts S2048x384
  slices_S2048x6_o0_0_S2048x1 : S2048x6.Slices ![0, 0] S2048x1
  shapeCasts_S2048x1_S2048x1 : S2048x1.ShapeCasts S2048x1
  broadcasts_S2048x1_S2048x64 : S2048x1.Broadcasts S2048x64
  slices_S2048x6_o0_1_S2048x1 : S2048x6.Slices ![0, 1] S2048x1
  slices_S2048x6_o0_2_S2048x1 : S2048x6.Slices ![0, 2] S2048x1
  slices_S2048x6_o0_3_S2048x1 : S2048x6.Slices ![0, 3] S2048x1
  slices_S2048x6_o0_4_S2048x1 : S2048x6.Slices ![0, 4] S2048x1
  slices_S2048x6_o0_5_S2048x1 : S2048x6.Slices ![0, 5] S2048x1
  concatenates_S2048x64_S2048x64_S2048x64_S2048x64_S2048x64_S2048x64_S2048x384_d1 : Shape.Concatenates [S2048x64, S2048x64, S2048x64, S2048x64, S2048x64, S2048x64] S2048x384 1
  broadcasts_S1x384_S2048x384 : S1x384.Broadcasts S2048x384
  natLt_1_32 : 1 < 32
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x6.size a ≤ S262144x6.size a
  hwx0_0 : ∀ i : grid0.Coords, EltTy.bits .f32 = 32 ∨ (Rect.block (s := S262144x6) S2048x6.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x384.size a ≤ S1x384.size a
  hwx0_1 : ∀ i : grid0.Coords, EltTy.bits .f32 = 32 ∨ (Rect.block (s := S1x384) S1x384.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x384.size a ≤ S1x384.size a
  hwx0_2 : ∀ i : grid0.Coords, EltTy.bits .f32 = 32 ∨ (Rect.block (s := S1x384) S1x384.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x384.size a ≤ S1x384.size a
  hwx0_3 : ∀ i : grid0.Coords, EltTy.bits .f32 = 32 ∨ (Rect.block (s := S1x384) S1x384.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x384.size a ≤ S1x384.size a
  hwx0_4 : ∀ i : grid0.Coords, EltTy.bits .f32 = 32 ∨ (Rect.block (s := S1x384) S1x384.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x384.size a ≤ S262144x384.size a
  hwx0_5 : ∀ i : grid0.Coords, EltTy.bits .f32 = 32 ∨ (Rect.block (s := S262144x384) S2048x384.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x384.size a ≤ S262144x384.size a
  hwx0_6 : ∀ i : grid0.Coords, EltTy.bits .f32 = 32 ∨ (Rect.block (s := S262144x384) S2048x384.size (cc0_transform_6 i) (hinb0_6 i)).WholeWords (EltTy.packing .f32)

variable [Facts₀]

abbrev win0_0 : Pipeline.Window sig grid0 :=
  Pipeline.Window.ofSpec (Memref.whole main_arg0) S2048x6.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x384.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x384.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x384.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S2048x384.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v9) S2048x384.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S262144x6 : Shape := ⟨2, ![262144, 6]⟩
abbrev S6x64 : Shape := ⟨2, ![6, 64]⟩
abbrev S262144x6x64 : Shape := ⟨3, ![262144, 6, 64]⟩
abbrev S6 : Shape := ⟨1, ![6]⟩
abbrev S262144x6x1 : Shape := ⟨3, ![262144, 6, 1]⟩
abbrev S1x6x64 : Shape := ⟨3, ![1, 6, 64]⟩
abbrev S1x6x1 : Shape := ⟨3, ![1, 6, 1]⟩
abbrev S_ : Shape := ⟨0, ![]⟩
abbrev S262144x384 : Shape := ⟨2, ![262144, 384]⟩

abbrev nBuf : Space → Nat
  | .hbm => 35
  | .vmem => 0
  | .smem => 0
  | _ => 0

abbrev bufTy : (tb : Table) → Fin (tcTables nBuf tb) → BufTy
  | .hbm, ⟨0, _⟩ => ⟨S262144x6, .f32⟩
  | .hbm, ⟨1, _⟩ => ⟨S6x64, .f32⟩
  | .hbm, ⟨2, _⟩ => ⟨S6x64, .f32⟩
  | .hbm, ⟨3, _⟩ => ⟨S262144x6x64, .f32⟩
  | .hbm, ⟨4, _⟩ => ⟨S6, .f32⟩
  | .hbm, ⟨5, _⟩ => ⟨S6, .f32⟩
  | .hbm, ⟨6, _⟩ => ⟨S262144x6x1, .f32⟩
  | .hbm, ⟨7, _⟩ => ⟨S1x6x64, .f32⟩
  | .hbm, ⟨8, _⟩ => ⟨S262144x6x64, .f32⟩
  | .hbm, ⟨9, _⟩ => ⟨S262144x6x64, .f32⟩
  | .hbm, ⟨10, _⟩ => ⟨S262144x6x64, .f32⟩
  | .hbm, ⟨11, _⟩ => ⟨S1x6x64, .f32⟩
  | .hbm, ⟨12, _⟩ => ⟨S262144x6x64, .f32⟩
  | .hbm, ⟨13, _⟩ => ⟨S262144x6x64, .f32⟩
  | .hbm, ⟨14, _⟩ => ⟨S1x6x1, .f32⟩
  | .hbm, ⟨15, _⟩ => ⟨S1x6x1, .f32⟩
  | .hbm, ⟨16, _⟩ => ⟨S262144x6x64, .f32⟩
  | .hbm, ⟨17, _⟩ => ⟨S262144x6x64, .f32⟩
  | .hbm, ⟨18, _⟩ => ⟨S_, .f32⟩
  | .hbm, ⟨19, _⟩ => ⟨S262144x6x64, .f32⟩
  | .hbm, ⟨20, _⟩ => ⟨S262144x6x64, .i1⟩
  | .hbm, ⟨21, _⟩ => ⟨S262144x6x64, .f32⟩
  | .hbm, ⟨22, _⟩ => ⟨S262144x6x64, .f32⟩
  | .hbm, ⟨23, _⟩ => ⟨S262144x6x64, .f32⟩
  | .hbm, ⟨24, _⟩ => ⟨S262144x6x64, .f32⟩
  | .hbm, ⟨25, _⟩ => ⟨S262144x6x64, .f32⟩
  | .hbm, ⟨26, _⟩ => ⟨S262144x6x64, .f32⟩
  | .hbm, ⟨27, _⟩ => ⟨S262144x6x64, .f32⟩
  | .hbm, ⟨28, _⟩ => ⟨S262144x6x64, .f32⟩
  | .hbm, ⟨29, _⟩ => ⟨S262144x6x64, .f32⟩
  | .hbm, ⟨30, _⟩ => ⟨S_, .f32⟩
  | .hbm, ⟨31, _⟩ => ⟨S262144x6x64, .f32⟩
  | .hbm, ⟨32, _⟩ => ⟨S262144x6x64, .i1⟩
  | .hbm, ⟨33, _⟩ => ⟨S262144x6x64, .f32⟩
  | .hbm, ⟨34, _⟩ => ⟨S262144x384, .f32⟩
  | _, _ => ⟨S262144x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩

abbrev nD : Nat := 1
abbrev τ : Topo := Topo.v7x

variable {F : FTy → Type} [FloatOps F]

class Facts₀ : Prop where
  bcast_S262144x6_S262144x6x1_0_1 : S262144x6.BroadcastsInDim S262144x6x1 (![0, 1] : Fin 2 → Fin S262144x6x1.rank)
  bcast_S6x64_S1x6x64_1_2 : S6x64.BroadcastsInDim S1x6x64 (![1, 2] : Fin 2 → Fin S1x6x64.rank)
  bcast_S262144x6x1_S262144x6x64_0_1_2 : S262144x6x1.BroadcastsInDim S262144x6x64 (![0, 1, 2] : Fin 3 → Fin S262144x6x64.rank)
  bcast_S1x6x64_S262144x6x64_0_1_2 : S1x6x64.BroadcastsInDim S262144x6x64 (![0, 1, 2] : Fin 3 → Fin S262144x6x64.rank)
  bcast_S6_S1x6x1_1 : S6.BroadcastsInDim S1x6x1 (![1] : Fin 1 → Fin S1x6x1.rank)
  bcast_S1x6x1_S262144x6x64_0_1_2 : S1x6x1.BroadcastsInDim S262144x6x64 (![0, 1, 2] : Fin 3 → Fin S262144x6x64.rank)
  bcast_S_S262144x6x64 : S_.BroadcastsInDim S262144x6x64 (![] : Fin 0 → Fin S262144x6x64.rank)
  shapeCasts_S262144x6x64_S262144x384 : S262144x6x64.ShapeCasts S262144x384

variable [Facts₀]

class Facts : Prop extends Facts₀ where

variable [Facts]
-- ==== Proof.Spike.lean ====
/-
  The specification. Each of the 262144 × 6 × 64 neurons takes one leaky-integrate-and-fire step: its input current is
  x·w + b, its membrane potential v decays by the factor β and receives the current, loses the threshold θ if it stood above θ
  before the step (reset by subtraction), and the neuron emits 1 exactly when the new potential stands above θ, else 0:
      spike = [ (β·v + (x·w + b)) − [v − θ > 0]·θ − θ > 0 ].
  The result array lists, for sample r, the six channels' 64 neurons one after the other: entry (r, f) is neuron
  (r, f / 64, f % 64). Everything is read on the extended reals; the four operations are used in exactly this grouping,
  so no law of arithmetic is needed to compare two programs that both compute it.
-/
import Idealize.ShloMosaic.PureOps.Ideal
import Idealize.ShloMosaic.Lib.ValueIdx
import Idealize.ShloMosaic.Lib.KernelVsHost

noncomputable section

namespace Cert.Spike

open Idealize.ShloMosaic Idealize.ShloMosaic.ValueIdx

/-- The shapes of the samples' inputs x, of the weights W and biases b, of the potentials v, and of the result. -/
abbrev SX : Shape := ⟨2, ![262144, 6]⟩
abbrev SW : Shape := ⟨2, ![6, 64]⟩
abbrev SM : Shape := ⟨3, ![262144, 6, 64]⟩
abbrev SO : Shape := ⟨2, ![262144, 384]⟩

/-- The decay factors' binary32 words, channel by channel: 0.9 and 0.85 alternating. -/
abbrev betaBits : Fin 6 → BitVec 32 := fun
  | 0 => 0x3F666666#32 | 1 => 0x3F59999A#32 | 2 => 0x3F666666#32 | 3 => 0x3F59999A#32 | 4 => 0x3F666666#32 | 5 => 0x3F59999A#32
  | _ => 0#32

/-- Channel c's decay factor β. -/
def beta (c : Fin 6) : Ideal .f32 := FloatOps.ofBits (F := Ideal) .f32 (betaBits c)

/-- The threshold θ, the same for every channel: 1. -/
def thr : Ideal .f32 := FloatOps.ofBits (F := Ideal) .f32 0x3F800000#32

/-- The number the comparisons are made against: 0. -/
abbrev zero : Ideal .f32 := FloatOps.ofBits (F := Ideal) .f32 0x00000000#32

/-- The step function: 1 where u > 0, else 0 (the comparison's bit read as a number). -/
def heav (u : Ideal .f32) : Ideal .f32 := FloatOps.uitofp (F := Ideal) .f32 (FloatOps.cmpf (F := Ideal) .ogt u zero)

/-- A comparison's bit widened to a word and read signed is the same number as the bit read unsigned: both are 0 or 1. -/
theorem sitofp_setWidth_eq_heav (u : Ideal .f32) :
    FloatOps.sitofp (F := Ideal) .f32 ((FloatOps.cmpf (F := Ideal) .ogt u zero).setWidth 32) = heav u := by
  show (((((FloatOps.cmpf (F := Ideal) .ogt u zero).setWidth 32).toInt : ℝ)) : EReal)
    = ((((FloatOps.cmpf (F := Ideal) .ogt u zero).toNat : ℝ)) : EReal)
  rw [toInt_setWidth_bit]
  norm_cast

/-- One neuron's step: from its input x, weight w, bias b, decay β, threshold θ and potential v, the spike it emits. -/
def fire (x w b β θ v : Ideal .f32) : Ideal .f32 :=
  heav (((β * v + (x * w + b)) - heav (v - θ) * θ) - θ)

/-- The channel and the neuron within the channel that column f of the result belongs to. -/
abbrev chan (f : Fin 384) : Fin 6 := ⟨f.val / 64, by have := f.isLt; omega⟩
abbrev cell (f : Fin 384) : Fin 64 := ⟨f.val % 64, Nat.mod_lt _ (by decide)⟩

/-- The result as ONE function of the four argument arrays: entry (r, f) is the spike of neuron (r, f / 64, f % 64). -/
def G (x : FVec Ideal SX .f32) (W b : FVec Ideal SW .f32) (v : FVec Ideal SM .f32) : FVec Ideal SO .f32 := fun i =>
  fire (x (ix2 (⟨(i 0).val, idx2_lt0 i⟩ : Fin 262144) (chan ⟨(i 1).val, idx2_lt1 i⟩)))
    (W (ix2 (chan ⟨(i 1).val, idx2_lt1 i⟩) (cell ⟨(i 1).val, idx2_lt1 i⟩)))
    (b (ix2 (chan ⟨(i 1).val, idx2_lt1 i⟩) (cell ⟨(i 1).val, idx2_lt1 i⟩)))
    (beta (chan ⟨(i 1).val, idx2_lt1 i⟩)) thr
    (v (ix3 (⟨(i 0).val, idx2_lt0 i⟩ : Fin 262144) (chan ⟨(i 1).val, idx2_lt1 i⟩) (cell ⟨(i 1).val, idx2_lt1 i⟩)))

/-- Entry (a, f) of the result is the spike of sample a's neuron f % 64 of channel f / 64. -/
theorem G_apply (x : FVec Ideal SX .f32) (W b : FVec Ideal SW .f32) (v : FVec Ideal SM .f32) (a : Fin 262144) (f : Fin 384) :
    G x W b v (ix2 a f) = fire (x (ix2 a (chan f))) (W (ix2 (chan f) (cell f))) (b (ix2 (chan f) (cell f))) (beta (chan f)) thr
      (v (ix3 a (chan f) (cell f))) := rfl

end Cert.Spike

end
-- ==== Proof.KernelBlock.lean ====
/-
  What one grid point leaves in its output block, entry by entry. The body loads the point's 2048 samples of x [2048, 6], the
  four rows w, b, β, θ [1, 384] and the samples' potentials [2048, 384]; it builds x spread over the lanes by taking column c
  of x, repeating it across 64 lanes and laying the six pieces side by side, so that lane f holds x's column f / 64; every
  other operation acts lane by lane, a row being read at its lane f for every sample. Hence entry (q, f) of the stored block
  is one neuron's step of x(q, f / 64), w(f), b(f), β(f), θ(f) and the potential at (q, f). The kernel writes the two
  indicators as a comparison's bit widened to a word and read signed: the same number as the bit read unsigned.
-/
import proofs.«121833_j77000173683381_2_alg».proof.Proof.ValueP
import proofs.«121833_j77000173683381_2_alg».proof.Proof.Spike
import Idealize.ShloMosaic.Lib.Pipeline.Value

noncomputable section

namespace Cert.KernelIdeal.KBlock

open Cert.KernelIdeal Cert.KernelIdeal.Gen Idealize.ShloMosaic Idealize.ShloMosaic.ValueIdx
open Cert.Spike (fire heav chan cell sitofp_setWidth_eq_heav)

/-- The zero offsets, spelt as a function. -/
theorem hz : (![0, 0] : Fin 2 → Nat) = fun _ => 0 := funext fun a => by fin_cases a <;> rfl

/-- Column j of the samples' block, repeated across 64 lanes: at (q, p) it is x(q, j). -/
theorem column_apply (x : Vec Ideal S2048x6 .f32) (j : Nat) (hj : j < 6) (h : S2048x6.Slices ![0, j] S2048x1) (q : Fin 2048) (p : Fin 64) :
    broadcastTo S2048x64 (shapeCast S2048x1 (extractStridedSlice S2048x1 ![0, j] x h) shapeCasts_S2048x1_S2048x1) broadcasts_S2048x1_S2048x64 (ix2 q p)
      = x (ix2 q (⟨j, hj⟩ : Fin 6)) := by
  refine (broadcastTo_apply _ _ (ix2 q p) (ix2 q (0 : Fin 1)) (fun a => ?_)).trans ?_
  · match a with
    | ⟨0, _⟩ => show q.val = if (2048 : Nat) = 1 then 0 else q.val; rw [if_neg (by decide)]
    | ⟨1, _⟩ => show 0 = if (1 : Nat) = 1 then 0 else p.val; rw [if_pos rfl]
  · rw [shapeCast_self]
    refine extractStridedSlice_apply _ x h (ix2 q (0 : Fin 1)) (ix2 q (⟨j, hj⟩ : Fin 6)) (fun a => ?_)
    match a with
    | ⟨0, _⟩ => show q.val = 0 + q.val; omega
    | ⟨1, _⟩ => show j = j + 0; omega

/-- The n-th of the six pieces laid side by side is x's column n repeated: at (q, p) it is x(q, n). -/
theorem piece_apply (P0 : Vec Ideal S1x384 .f32) (P1 : Vec Ideal S2048x384 .f32) (P2 : Vec Ideal S2048x6 .f32) (P3 P4 P5 : Vec Ideal S1x384 .f32)
    (n : Fin 6) (q : Fin 2048) (p : Fin 64) : ValueP.Cat6_2 P0 P1 P2 P3 P4 P5 n (ix2 q p) = P2 (ix2 q n) := by
  match n with
  | ⟨0, _⟩ => exact column_apply P2 0 (by decide) _ q p
  | ⟨1, _⟩ => exact column_apply P2 1 (by decide) _ q p
  | ⟨2, _⟩ => exact column_apply P2 2 (by decide) _ q p
  | ⟨3, _⟩ => exact column_apply P2 3 (by decide) _ q p
  | ⟨4, _⟩ => exact column_apply P2 4 (by decide) _ q p
  | ⟨5, _⟩ => exact column_apply P2 5 (by decide) _ q p
  | ⟨k + 6, h⟩ => exact absurd h (by omega)

/-! Where entry (q, f) of the block reads each of its operands: a row at lane f, the potentials at (q, f), the laid-out x in
    piece f / 64 at (q, f % 64). -/
theorem at0 (q : Fin 2048) (f : Fin 384) : ValueP.ix6_0 (ix2 q f) = ix2 (0 : Fin 1) f := funext fun a => match a with | ⟨0, _⟩ => rfl | ⟨1, _⟩ => rfl
theorem at1 (q : Fin 2048) (f : Fin 384) : ValueP.ix6_1 (ix2 q f) = ix2 q f := funext fun a => match a with | ⟨0, _⟩ => rfl | ⟨1, _⟩ => rfl
theorem at2 (q : Fin 2048) (f : Fin 384) : ValueP.ix6_2 (ix2 q f) = ix2 q (cell f) := funext fun a => match a with | ⟨0, _⟩ => rfl | ⟨1, _⟩ => rfl
theorem at3 (q : Fin 2048) (f : Fin 384) : ValueP.ix6_3 (ix2 q f) = ix2 (0 : Fin 1) f := funext fun a => match a with | ⟨0, _⟩ => rfl | ⟨1, _⟩ => rfl
theorem at4 (q : Fin 2048) (f : Fin 384) : ValueP.ix6_4 (ix2 q f) = ix2 (0 : Fin 1) f := funext fun a => match a with | ⟨0, _⟩ => rfl | ⟨1, _⟩ => rfl
theorem at5 (q : Fin 2048) (f : Fin 384) : ValueP.ix6_5 (ix2 q f) = ix2 q f := funext fun a => match a with | ⟨0, _⟩ => rfl | ⟨1, _⟩ => rfl
theorem at6 (q : Fin 2048) (f : Fin 384) : ValueP.ix6_6 (ix2 q f) = ix2 (0 : Fin 1) f := funext fun a => match a with | ⟨0, _⟩ => rfl | ⟨1, _⟩ => rfl
theorem at7 (q : Fin 2048) (f : Fin 384) : ValueP.ix6_7 (ix2 q f) = ix2 (0 : Fin 1) f := funext fun a => match a with | ⟨0, _⟩ => rfl | ⟨1, _⟩ => rfl
theorem at8 (q : Fin 2048) (f : Fin 384) : ValueP.ix6_8 (ix2 q f) = ix2 (0 : Fin 1) f := funext fun a => match a with | ⟨0, _⟩ => rfl | ⟨1, _⟩ => rfl
theorem atPiece (q : Fin 2048) (f : Fin 384) : ValueP.csel6_2 (ix2 q f) = chan f := rfl

/-- The block's entry (q, f), over any six loaded values: one neuron's step of x(q, f / 64), the four rows at lane f, and the
    potential at (q, f). -/
theorem E6_apply (P0 : Vec Ideal S1x384 .f32) (P1 : Vec Ideal S2048x384 .f32) (P2 : Vec Ideal S2048x6 .f32) (P3 P4 P5 : Vec Ideal S1x384 .f32)
    (q : Fin 2048) (f : Fin 384) :
    ValueP.E6 P0 P1 P2 P3 P4 P5 (ix2 q f)
      = fire (P2 (ix2 q (chan f))) (P3 (ix2 (0 : Fin 1) f)) (P4 (ix2 (0 : Fin 1) f)) (P0 (ix2 (0 : Fin 1) f)) (P5 (ix2 (0 : Fin 1) f)) (P1 (ix2 q f)) := by
  show FloatOps.sitofp (F := Ideal) .f32 ((FloatOps.cmpf (F := Ideal) .ogt (FloatOps.subf (F := Ideal) (FloatOps.subf (F := Ideal) (FloatOps.addf (F := Ideal) (FloatOps.mulf (F := Ideal) (P0 (ValueP.ix6_0 (ix2 q f))) (P1 (ValueP.ix6_1 (ix2 q f)))) (FloatOps.addf (F := Ideal) (FloatOps.mulf (F := Ideal) ((ValueP.Cat6_2 P0 P1 P2 P3 P4 P5 (ValueP.csel6_2 (ix2 q f))) (ValueP.ix6_2 (ix2 q f))) (P3 (ValueP.ix6_3 (ix2 q f)))) (P4 (ValueP.ix6_4 (ix2 q f))))) (FloatOps.mulf (F := Ideal) (FloatOps.sitofp (F := Ideal) .f32 ((FloatOps.cmpf (F := Ideal) .ogt (FloatOps.subf (F := Ideal) (P1 (ValueP.ix6_5 (ix2 q f))) (P5 (ValueP.ix6_6 (ix2 q f)))) (FloatOps.ofBits (F := Ideal) .f32 0x00000000#32)).setWidth 32)) (P5 (ValueP.ix6_7 (ix2 q f))))) (P5 (ValueP.ix6_8 (ix2 q f)))) (FloatOps.ofBits (F := Ideal) .f32 0x00000000#32)).setWidth 32) = _
  rw [at0, at1, at2, at3, at4, at5, at6, at7, at8, atPiece, piece_apply, sitofp_setWidth_eq_heav, sitofp_setWidth_eq_heav]
  rfl

/-- What the body leaves in the output's buffer, from the six input blocks, at entry (q, f). -/
theorem out_apply (x0 : Vec Ideal S2048x6 .f32) (x1 x2 x3 x4 : Vec Ideal S1x384 .f32) (x5 : Vec Ideal S2048x384 .f32) (q : Fin 2048) (f : Fin 384) :
    out0_6 x0 x1 x2 x3 x4 x5 (ix2 q f)
      = fire (x0 (ix2 q (chan f))) (x1 (ix2 (0 : Fin 1) f)) (x2 (ix2 (0 : Fin 1) f)) (x3 (ix2 (0 : Fin 1) f)) (x4 (ix2 (0 : Fin 1) f)) (x5 (ix2 q f)) := by
  have l0 : ∀ X : Vec Ideal S2048x6 .f32, View.ld X r0_0 = X := fun X => View.ld_unit_zero hz _ X
  have l1 : ∀ X : Vec Ideal S1x384 .f32, View.ld X r0_1 = X := fun X => View.ld_unit_zero hz _ X
  have l2 : ∀ X : Vec Ideal S2048x384 .f32, View.ld X r0_2 = X := fun X => View.ld_unit_zero hz _ X
  unfold out0_6
  refine (ValueP.canon6_eq (View.ld x3 r0_1) (View.ld x5 r0_2) (View.ld x0 r0_0) (View.ld x1 r0_1) (View.ld x2 r0_1) (View.ld x4 r0_1) (ix2 q f)).trans ?_
  rw [l1 x3, l2 x5, l0 x0, l1 x1, l1 x2, l1 x4]
  exact E6_apply x3 x5 x0 x1 x2 x4 q f

end Cert.KernelIdeal.KBlock

end
-- ==== Proof.KernelHost.lean ====
/-
  The arrays the kernel's one region finds. Before it starts, the host has recast the weights W and the biases b, [6, 64],
  as one row [1, 384]; the potentials v, [262144, 6, 64], as [262144, 384]; and has spread the two channel tables — the decay
  factors and the thresholds — over the 64 neurons of each channel and recast them as rows [1, 384] too. A recast keeps the
  row-major position, so column f of a row is the entry of channel f / 64 and neuron f % 64, and entry (a, f) of the recast
  potentials is v at (a, f / 64, f % 64).
-/
import proofs.«121833_j77000173683381_2_alg».proof.Proof.Gen.KernelIdeal.Frame
import proofs.«121833_j77000173683381_2_alg».proof.Proof.Spike
import Idealize.ShloMosaic.Lib.Pipeline.Value
import Idealize.ShloMosaic.Lib.StableHlo.Run

noncomputable section

namespace Cert.KernelIdeal.KHost

open Cert.KernelIdeal Cert.KernelIdeal.Gen Idealize.ShloMosaic Idealize.ShloMosaic.TcCoe Idealize.SL.Sem Idealize.ShloMosaic.ValueIdx
open Idealize.ShloMosaic.StableHlo
open Cert.Spike (beta thr chan cell)

variable (m : (ℓ : Loc nD τ sig) → Buf (Elt Ideal) ℓ)

/-- The region finds the weights' row as the recast of W. -/
theorem V_w (c : Dev nD) : (V m c main_v6 : S1x384.Idx → EReal)
    = shapeCast S1x384 (m ((c : Thread nD τ).loc main_arg1)) shapeCasts_S6x64_S1x384 := by
  dsimp only [Gen.V, Gen.hostOps0]; after_results; rfl

/-- The region finds the biases' row as the recast of b. -/
theorem V_b (c : Dev nD) : (V m c main_v7 : S1x384.Idx → EReal)
    = shapeCast S1x384 (m ((c : Thread nD τ).loc main_arg2)) shapeCasts_S6x64_S1x384 := by
  dsimp only [Gen.V, Gen.hostOps0]; after_results; rfl

/-- The region finds the potentials' array as the recast of v. -/
theorem V_v (c : Dev nD) : (V m c main_v8 : S262144x384.Idx → EReal)
    = shapeCast S262144x384 (m ((c : Thread nD τ).loc main_arg3)) shapeCasts_S262144x6x64_S262144x384 := by
  dsimp only [Gen.V, Gen.hostOps0]; after_results; rfl

/-- The region finds the decay factors' row as the table spread over each channel's neurons, recast twice. -/
theorem V_beta (c : Dev nD) : (V m c main_v2 : S1x384.Idx → EReal)
    = shapeCast S1x384 (shapeCast S384 (broadcastInDim S6x64 ![0] bcast_S6_S6x64_0
        (fun i => FloatOps.ofBits (F := Ideal) .f32 (lit0 (S6.rowMajor i)))) shapeCasts_S6x64_S384) shapeCasts_S384_S1x384 := by
  dsimp only [Gen.V, Gen.hostOps0]; after_results; rfl

/-- The region finds the thresholds' row as the constant table spread and recast the same way. -/
theorem V_thr (c : Dev nD) : (V m c main_v5 : S1x384.Idx → EReal)
    = shapeCast S1x384 (shapeCast S384 (broadcastInDim S6x64 ![0] bcast_S6_S6x64_0
        (constant (F := Ideal) S6 .f32 0x3F800000#32)) shapeCasts_S6x64_S384) shapeCasts_S384_S1x384 := by
  dsimp only [Gen.V, Gen.hostOps0]; after_results; rfl

/-- The decay factors' table is the specification's. -/
theorem lit0_eq (c : Fin 6) : lit0 c = Cert.Spike.betaBits c := by
  fin_cases c <;> rfl

/-- The table's entry at channel c, found through the channel's row-major position in a one-axis array, is β of c. -/
theorem beta_eq (c : Fin 6) : FloatOps.ofBits (F := Ideal) .f32 (lit0 (S6.rowMajor (ix1 c))) = beta c := by
  have e : S6.rowMajor (ix1 c) = c := Fin.ext (Shape.rowMajor_val_one (ix1 c))
  rw [e, lit0_eq]; rfl

/-- A [6, 64] array recast as a row: column f is its entry at channel f / 64, neuron f % 64. -/
theorem row_apply (X : FVec Ideal S6x64 .f32) (f : Fin 384) :
    shapeCast S1x384 X shapeCasts_S6x64_S1x384 (ix2 (0 : Fin 1) f) = X (ix2 (chan f) (cell f)) := by
  refine shapeCast_apply _ _ (ix2 (0 : Fin 1) f) (ix2 (chan f) (cell f)) ?_
  rw [Shape.rowMajor_val_two, Shape.rowMajor_val_two]
  show f.val / 64 * 64 + f.val % 64 = 0 * 384 + f.val
  omega

/-- A channel table spread over each channel's 64 neurons and recast as a row: column f is the table's entry at channel f / 64. -/
theorem tableRow_apply (t : FVec Ideal S6 .f32) (f : Fin 384) :
    shapeCast S1x384 (shapeCast S384 (broadcastInDim S6x64 ![0] bcast_S6_S6x64_0 t) shapeCasts_S6x64_S384) shapeCasts_S384_S1x384 (ix2 (0 : Fin 1) f)
      = t (ix1 (chan f)) := by
  refine (shapeCast_apply _ _ (ix2 (0 : Fin 1) f) (ix1 f) ?_).trans ?_
  · rw [Shape.rowMajor_val_one, Shape.rowMajor_val_two]
    show f.val = 0 * 384 + f.val
    omega
  refine (shapeCast_apply _ _ (ix1 f) (ix2 (chan f) (cell f)) ?_).trans ?_
  · rw [Shape.rowMajor_val_two, Shape.rowMajor_val_one]
    show f.val / 64 * 64 + f.val % 64 = f.val
    omega
  refine broadcastInDim_apply _ _ t (ix2 (chan f) (cell f)) (ix1 (chan f)) (fun d => ?_)
  match d with
  | ⟨0, _⟩ => show f.val / 64 = if (6 : Nat) = 1 then 0 else f.val / 64; rw [if_neg (by decide)]

/-- Column f of the weights' row the region finds is W at (f / 64, f % 64). -/
theorem w_apply (c : Dev nD) (f : Fin 384) :
    V m c main_v6 (ix2 (0 : Fin 1) f) = m ((c : Thread nD τ).loc main_arg1) (ix2 (chan f) (cell f)) := by
  rw [V_w]; exact row_apply _ f

/-- Column f of the biases' row the region finds is b at (f / 64, f % 64). -/
theorem b_apply (c : Dev nD) (f : Fin 384) :
    V m c main_v7 (ix2 (0 : Fin 1) f) = m ((c : Thread nD τ).loc main_arg2) (ix2 (chan f) (cell f)) := by
  rw [V_b]; exact row_apply _ f

/-- Column f of the decay factors' row the region finds is β of channel f / 64. -/
theorem beta_apply (c : Dev nD) (f : Fin 384) : V m c main_v2 (ix2 (0 : Fin 1) f) = beta (chan f) := by
  rw [V_beta]; exact (tableRow_apply _ f).trans (beta_eq (chan f))

/-- Column f of the thresholds' row the region finds is θ. -/
theorem thr_apply (c : Dev nD) (f : Fin 384) : V m c main_v5 (ix2 (0 : Fin 1) f) = thr := by
  rw [V_thr]; exact (tableRow_apply _ f).trans rfl

/-- Entry (a, f) of the potentials' array the region finds is v at sample a, channel f / 64, neuron f % 64. -/
theorem v_apply (c : Dev nD) (a : Fin 262144) (f : Fin 384) :
    V m c main_v8 (ix2 a f) = m ((c : Thread nD τ).loc main_arg3) (ix3 a (chan f) (cell f)) := by
  rw [V_v]
  refine shapeCast_apply _ _ (ix2 a f) (ix3 a (chan f) (cell f)) ?_
  rw [Shape.rowMajor_val_three, Shape.rowMajor_val_two]
  show (a.val * 6 + f.val / 64) * 64 + f.val % 64 = a.val * 384 + f.val
  have := f.isLt
  omega

end Cert.KernelIdeal.KHost

end
-- ==== Proof.KernelValue.lean ====
/-
  From blocks to the whole array. Grid point t (of 128) stages samples 2048·t … 2048·t + 2047: rows of x and of the recast
  potentials; the four rows w, b, β, θ are the same block at every point. What point t writes back is therefore block t of
  the specification: entry (q, f) of its block is one neuron's step of x(2048·t + q, f / 64), W and b at (f / 64, f % 64),
  channel f / 64's decay factor, the threshold, and v(2048·t + q, f / 64, f % 64). Row a of the result lies in the block of
  point a / 2048, so the 128 blocks cover the array, and the array ends holding the specification everywhere.
-/
import proofs.«121833_j77000173683381_2_alg».proof.Proof.KernelBlock
import proofs.«121833_j77000173683381_2_alg».proof.Proof.KernelHost
import Idealize.ShloMosaic.Lib.Pipeline.Value

noncomputable section

namespace Cert.KernelIdeal.KValue

open Cert.KernelIdeal Cert.KernelIdeal.Gen Idealize.ShloMosaic Idealize.ShloMosaic.TcCoe Idealize.SL.Sem Idealize.ShloMosaic.ValueIdx
open Idealize.ShloMosaic.Pipeline (Dat)
open Cert.Spike (fire beta thr chan cell G G_apply)

variable (m : (ℓ : Loc nD τ sig) → Buf (Elt Ideal) ℓ) (ρ : Dev nD → PrngReg)

/-- The printed index maps, decided once over the 128 grid points: the samples' window, the potentials' and the output's
    are at block row t, column 0; the four rows' windows stay at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- The sample that row q of point t's blocks is. -/
abbrev sample (t : Fin cfg0.N) (q : Fin 2048) : Fin 262144 :=
  ⟨t.val * 2048 + q.val, by have ht : t.val < 128 := lt_of_lt_of_eq t.isLt N_0; have := q.isLt; omega⟩

/-- WHAT POINT t WRITES BACK is block t of the specification of the four argument arrays. -/
theorem flushed_eq (c : Dev nD) (t : Fin cfg0.N) :
    (dats m 0 c).flushed 6 t = ((cfg0.win 6).blk t).view.read (Elt Ideal) (G (m ((c : Thread nD τ).loc main_arg0)) (m ((c : Thread nD τ).loc main_arg1)) (m ((c : Thread nD τ).loc main_arg2)) (m ((c : Thread nD τ).loc main_arg3))) := by
  show (cfg0.win 6).cut (grid0.coords t) ((dats m 0 c).after 6 t) = _
  rw [after0_6]
  obtain ⟨e00, e01, e10, e11, e20, e21, e30, e31, e40, e41, e50, e51, e60, e61⟩ := idx_facts t
  funext y
  have hy0 : (y 0).val < 2048 := (y 0).isLt
  have hy1 : (y 1).val < 384 := (y 1).isLt
  obtain ⟨q, f, rfl⟩ : ∃ (q : Fin 2048) (f : Fin 384), y = ix2 q f :=
    ⟨⟨(y 0).val, hy0⟩, ⟨(y 1).val, hy1⟩, funext fun a => match a with | ⟨0, _⟩ => rfl | ⟨1, _⟩ => rfl⟩
  show out0_6 (iblk m c 0 t) (iblk m c 1 t) (iblk m c 2 t) (iblk m c 3 t) (iblk m c 4 t) (iblk m c 5 t) (ix2 q f)
    = (G (m ((c : Thread nD τ).loc main_arg0)) (m ((c : Thread nD τ).loc main_arg1)) (m ((c : Thread nD τ).loc main_arg2)) (m ((c : Thread nD τ).loc main_arg3))) (((cfg0.win 6).blk t).view.emb (ix2 q f))
  refine (KBlock.out_apply (iblk m c 0 t) (iblk m c 1 t) (iblk m c 2 t) (iblk m c 3 t) (iblk m c 4 t) (iblk m c 5 t) q f).trans ?_
  -- the samples' block, row q, column f / 64
  have h0 : iblk m c 0 t (ix2 q (chan f)) = m ((c : Thread nD τ).loc main_arg0) (ix2 (sample t q) (chan f)) := by
    show V m c main_arg0 (((cfg0.win 0).blk t).view.emb (ix2 q (chan f))) = _
    rw [V_main_arg0]
    refine congrArg (m ((c : Thread nD τ).loc main_arg0)) (funext fun a => Fin.ext ?_)
    match a with
    | ⟨0, _⟩ => show win0_0.index t (0 : Fin 2) * 2048 + 1 * q.val = t.val * 2048 + q.val; omega
    | ⟨1, _⟩ => show win0_0.index t (1 : Fin 2) * 6 + 1 * (f.val / 64) = f.val / 64; omega
  -- the four rows, lane f
  have h1 : iblk m c 1 t (ix2 (0 : Fin 1) f) = m ((c : Thread nD τ).loc main_arg1) (ix2 (chan f) (cell f)) := by
    show V m c main_v6 (((cfg0.win 1).blk t).view.emb (ix2 (0 : Fin 1) f)) = _
    have e : ((cfg0.win 1).blk t).view.emb (ix2 (0 : Fin 1) f) = ix2 (0 : Fin 1) f := funext fun a => Fin.ext (by
      match a with
      | ⟨0, _⟩ => show win0_1.index t (0 : Fin 2) * 1 + 1 * 0 = 0; omega
      | ⟨1, _⟩ => show win0_1.index t (1 : Fin 2) * 384 + 1 * f.val = f.val; omega)
    rw [e]; exact KHost.w_apply m c f
  have h2 : iblk m c 2 t (ix2 (0 : Fin 1) f) = m ((c : Thread nD τ).loc main_arg2) (ix2 (chan f) (cell f)) := by
    show V m c main_v7 (((cfg0.win 2).blk t).view.emb (ix2 (0 : Fin 1) f)) = _
    have e : ((cfg0.win 2).blk t).view.emb (ix2 (0 : Fin 1) f) = ix2 (0 : Fin 1) f := funext fun a => Fin.ext (by
      match a with
      | ⟨0, _⟩ => show win0_2.index t (0 : Fin 2) * 1 + 1 * 0 = 0; omega
      | ⟨1, _⟩ => show win0_2.index t (1 : Fin 2) * 384 + 1 * f.val = f.val; omega)
    rw [e]; exact KHost.b_apply m c f
  have h3 : iblk m c 3 t (ix2 (0 : Fin 1) f) = beta (chan f) := by
    show V m c main_v2 (((cfg0.win 3).blk t).view.emb (ix2 (0 : Fin 1) f)) = _
    have e : ((cfg0.win 3).blk t).view.emb (ix2 (0 : Fin 1) f) = ix2 (0 : Fin 1) f := funext fun a => Fin.ext (by
      match a with
      | ⟨0, _⟩ => show win0_3.index t (0 : Fin 2) * 1 + 1 * 0 = 0; omega
      | ⟨1, _⟩ => show win0_3.index t (1 : Fin 2) * 384 + 1 * f.val = f.val; omega)
    rw [e]; exact KHost.beta_apply m c f
  have h4 : iblk m c 4 t (ix2 (0 : Fin 1) f) = thr := by
    show V m c main_v5 (((cfg0.win 4).blk t).view.emb (ix2 (0 : Fin 1) f)) = _
    have e : ((cfg0.win 4).blk t).view.emb (ix2 (0 : Fin 1) f) = ix2 (0 : Fin 1) f := funext fun a => Fin.ext (by
      match a with
      | ⟨0, _⟩ => show win0_4.index t (0 : Fin 2) * 1 + 1 * 0 = 0; omega
      | ⟨1, _⟩ => show win0_4.index t (1 : Fin 2) * 384 + 1 * f.val = f.val; omega)
    rw [e]; exact KHost.thr_apply m c f
  -- the potentials' block, row q, lane f
  have h5 : iblk m c 5 t (ix2 q f) = m ((c : Thread nD τ).loc main_arg3) (ix3 (sample t q) (chan f) (cell f)) := by
    show V m c main_v8 (((cfg0.win 5).blk t).view.emb (ix2 q f)) = _
    have e : ((cfg0.win 5).blk t).view.emb (ix2 q f) = ix2 (sample t q) f := funext fun a => Fin.ext (by
      match a with
      | ⟨0, _⟩ => show win0_5.index t (0 : Fin 2) * 2048 + 1 * q.val = t.val * 2048 + q.val; omega
      | ⟨1, _⟩ => show win0_5.index t (1 : Fin 2) * 384 + 1 * f.val = f.val; omega)
    rw [e]; exact KHost.v_apply m c (sample t q) f
  -- the output's block, row q, lane f
  have h6 : ((cfg0.win 6).blk t).view.emb (ix2 q f) = ix2 (sample t q) f := funext fun a => Fin.ext (by
    match a with
    | ⟨0, _⟩ => show win0_6.index t (0 : Fin 2) * 2048 + 1 * q.val = t.val * 2048 + q.val; omega
    | ⟨1, _⟩ => show win0_6.index t (1 : Fin 2) * 384 + 1 * f.val = f.val; omega)
  rw [h0, h1, h2, h3, h4, h5, h6, G_apply]

/-- An entry of the result array is in point t's block iff each coordinate is in the block's range on its axis. -/
theorem mem_blk (t : Fin cfg0.N) (i : S262144x384.Idx) :
    i ∈ ((cfg0.win 6).blk t).view.set ↔ ∀ a : Fin 2, win0_6.index t a * S2048x384.size a ≤ (i a).val ∧ (i a).val < win0_6.index t a * S2048x384.size a + S2048x384.size a := by
  show i ∈ ((View.whole main_v9).slice (win0_6.rect t)).set ↔ _
  rw [View.set_slice_whole, Rect.mem_set_unit]
  exact Iff.rfl

/-- Every entry of the result array is in some point's block: row a in that of point a / 2048. -/
theorem cover (i : S262144x384.Idx) : ∃ t : Fin cfg0.N, (cfg0.win 6).flush t = true ∧ i ∈ ((cfg0.win 6).blk t).view.set := by
  have hi0 : (i 0).val < 262144 := (i 0).isLt
  have hi1 : (i 1).val < 384 := (i 1).isLt
  have hN : grid0.N = 128 := N_0
  have ht : (i 0).val / 2048 < cfg0.N := by show (i 0).val / 2048 < grid0.N; rw [hN]; omega
  obtain ⟨e00, e01, e10, e11, e20, e21, e30, e31, e40, e41, e50, e51, e60, e61⟩ := idx_facts ⟨(i 0).val / 2048, ht⟩
  refine ⟨⟨(i 0).val / 2048, ht⟩, flush0_6 _, ?_⟩
  rw [mem_blk]
  intro a
  match a with
  | ⟨0, _⟩ =>
    show win0_6.index ⟨(i 0).val / 2048, ht⟩ (0 : Fin 2) * 2048 ≤ (i 0).val ∧ (i 0).val < win0_6.index ⟨(i 0).val / 2048, ht⟩ (0 : Fin 2) * 2048 + 2048
    have e : win0_6.index ⟨(i 0).val / 2048, ht⟩ (0 : Fin 2) = (i 0).val / 2048 := e60
    omega
  | ⟨1, _⟩ =>
    show win0_6.index ⟨(i 0).val / 2048, ht⟩ (1 : Fin 2) * 384 ≤ (i 1).val ∧ (i 1).val < win0_6.index ⟨(i 0).val / 2048, ht⟩ (1 : Fin 2) * 384 + 384
    omega

/-- THE RESULT ARRAY after the run is the specification of the four argument arrays. -/
theorem final (c : Dev nD) : (dats m 0 c).arrAt 6 cfg0.N = (G (m ((c : Thread nD τ).loc main_arg0)) (m ((c : Thread nD τ).loc main_arg1)) (m ((c : Thread nD τ).loc main_arg2)) (m ((c : Thread nD τ).loc main_arg3))) :=
  (dats m 0 c).arrAt_eq_of_cover 6 (G (m ((c : Thread nD τ).loc main_arg0)) (m ((c : Thread nD τ).loc main_arg1)) (m ((c : Thread nD τ).loc main_arg2)) (m ((c : Thread nD τ).loc main_arg3))) (fun t _ => flushed_eq m c t) cover

/-- The kernel's run: every weakly fair execution terminates with the result array at the specification of the arguments,
    and the arguments as they were. -/
theorem run : θ_run defs (onTc (τ := τ) (main (F := Ideal))) ⟨m, fun _ => 0, ρ⟩ fun r => ∀ c : Dev nD,
      r.2.mem ((c : Thread nD τ).loc main_v9) = (G (m ((c : Thread nD τ).loc main_arg0)) (m ((c : Thread nD τ).loc main_arg1)) (m ((c : Thread nD τ).loc main_arg2)) (m ((c : Thread nD τ).loc main_arg3)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (ValueP.run_blocks m ρ)

end Cert.KernelIdeal.KValue

end
-- ==== Proof.RefRun.lean ====
/-
  The reference program's run. Its entry function is a straight line of 31 array operations, none of which can fault:
  two constant tables (the thresholds, all 1, and the decay factors 0.9 / 0.85 by channel), broadcasts of the inputs
  x [262144, 6], W and b [6, 64] and of the two tables to the neurons' shape [262144, 6, 64], the arithmetic of one
  leaky-integrate-and-fire step neuron by neuron, two comparisons with 0 read as numbers, and a last recast of the spikes
  to [262144, 384]. Listed in order (`ops`), they ARE the function (`main_eq`), so every weakly fair execution ends with
  the result array at the operations' composed value of the four arguments (`result`) and the arguments as they were.
-/
import proofs.«121833_j77000173683381_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The entry function's 31 operations, in order. -/
abbrev ops : List (HloOp τ sig (Elt F)) :=
  [
    nullary main_cst (constant S6 .f32 0x3F800000#32),
    nullary main_cst_0 (fun i => FloatOps.ofBits .f32 (lit0 (S6.rowMajor i))),
    unary main_arg0 main_v0 (broadcastInDim S262144x6x1 ![0, 1] bcast_S262144x6_S262144x6x1_0_1 : (⟨S262144x6, .f32⟩ : BufTy).Contents (Elt F) → (⟨S262144x6x1, .f32⟩ : BufTy).Contents (Elt F)),
    unary main_arg1 main_v1 (broadcastInDim S1x6x64 ![1, 2] bcast_S6x64_S1x6x64_1_2 : (⟨S6x64, .f32⟩ : BufTy).Contents (Elt F) → (⟨S1x6x64, .f32⟩ : BufTy).Contents (Elt F)),
    unary main_v0 main_v2 (broadcastInDim S262144x6x64 ![0, 1, 2] bcast_S262144x6x1_S262144x6x64_0_1_2 : (⟨S262144x6x1, .f32⟩ : BufTy).Contents (Elt F) → (⟨S262144x6x64, .f32⟩ : BufTy).Contents (Elt F)),
    unary main_v1 main_v3 (broadcastInDim S262144x6x64 ![0, 1, 2] bcast_S1x6x64_S262144x6x64_0_1_2 : (⟨S1x6x64, .f32⟩ : BufTy).Contents (Elt F) → (⟨S262144x6x64, .f32⟩ : BufTy).Contents (Elt F)),
    binary main_v2 main_v3 main_v4 (mulf : (⟨S262144x6x64, .f32⟩ : BufTy).Contents (Elt F) → (⟨S262144x6x64, .f32⟩ : BufTy).Contents (Elt F) → (⟨S262144x6x64, .f32⟩ : BufTy).Contents (Elt F)),
    unary main_arg2 main_v5 (broadcastInDim S1x6x64 ![1, 2] bcast_S6x64_S1x6x64_1_2 : (⟨S6x64, .f32⟩ : BufTy).Contents (Elt F) → (⟨S1x6x64, .f32⟩ : BufTy).Contents (Elt F)),
    unary main_v5 main_v6 (broadcastInDim S262144x6x64 ![0, 1, 2] bcast_S1x6x64_S262144x6x64_0_1_2 : (⟨S1x6x64, .f32⟩ : BufTy).Contents (Elt F) → (⟨S262144x6x64, .f32⟩ : BufTy).Contents (Elt F)),
    binary main_v4 main_v6 main_v7 (addf : (⟨S262144x6x64, .f32⟩ : BufTy).Contents (Elt F) → (⟨S262144x6x64, .f32⟩ : BufTy).Contents (Elt F) → (⟨S262144x6x64, .f32⟩ : BufTy).Contents (Elt F)),
    unary main_cst main_v8 (broadcastInDim S1x6x1 ![1] bcast_S6_S1x6x1_1 : (⟨S6, .f32⟩ : BufTy).Contents (Elt F) → (⟨S1x6x1, .f32⟩ : BufTy).Contents (Elt F)),
    unary main_cst_0 main_v9 (broadcastInDim S1x6x1 ![1] bcast_S6_S1x6x1_1 : (⟨S6, .f32⟩ : BufTy).Contents (Elt F) → (⟨S1x6x1, .f32⟩ : BufTy).Contents (Elt F)),
    unary main_v8 main_v10 (broadcastInDim S262144x6x64 ![0, 1, 2] bcast_S1x6x1_S262144x6x64_0_1_2 : (⟨S1x6x1, .f32⟩ : BufTy).Contents (Elt F) → (⟨S262144x6x64, .f32⟩ : BufTy).Contents (Elt F)),
    binary main_arg3 main_v10 main_v11 (subf : (⟨S262144x6x64, .f32⟩ : BufTy).Contents (Elt F) → (⟨S262144x6x64, .f32⟩ : BufTy).Contents (Elt F) → (⟨S262144x6x64, .f32⟩ : BufTy).Contents (Elt F)),
    nullary main_cst_1 (constant S_ .f32 0x00000000#32),
    unary main_cst_1 main_v12 (broadcastInDim S262144x6x64 ![] bcast_S_S262144x6x64 : (⟨S_, .f32⟩ : BufTy).Contents (Elt F) → (⟨S262144x6x64, .f32⟩ : BufTy).Contents (Elt F)),
    binary main_v11 main_v12 main_v13 (cmpf .ogt : (⟨S262144x6x64, .f32⟩ : BufTy).Contents (Elt F) → (⟨S262144x6x64, .f32⟩ : BufTy).Contents (Elt F) → (⟨S262144x6x64, .i1⟩ : BufTy).Contents (Elt F)),
    unary main_v13 main_v14 (uitofp .f32 : (⟨S262144x6x64, .i1⟩ : BufTy).Contents (Elt F) → (⟨S262144x6x64, .f32⟩ : BufTy).Contents (Elt F)),
    unary main_v9 main_v15 (broadcastInDim S262144x6x64 ![0, 1, 2] bcast_S1x6x1_S262144x6x64_0_1_2 : (⟨S1x6x1, .f32⟩ : BufTy).Contents (Elt F) → (⟨S262144x6x64, .f32⟩ : BufTy).Contents (Elt F)),
    binary main_v15 main_arg3 main_v16 (mulf : (⟨S262144x6x64, .f32⟩ : BufTy).Contents (Elt F) → (⟨S262144x6x64, .f32⟩ : BufTy).Contents (Elt F) → (⟨S262144x6x64, .f32⟩ : BufTy).Contents (Elt F)),
    binary main_v16 main_v7 main_v17 (addf : (⟨S262144x6x64, .f32⟩ : BufTy).Contents (Elt F) → (⟨S262144x6x64, .f32⟩ : BufTy).Contents (Elt F) → (⟨S262144x6x64, .f32⟩ : BufTy).Contents (Elt F)),
    unary main_v8 main_v18 (broadcastInDim S262144x6x64 ![0, 1, 2] bcast_S1x6x1_S262144x6x64_0_1_2 : (⟨S1x6x1, .f32⟩ : BufTy).Contents (Elt F) → (⟨S262144x6x64, .f32⟩ : BufTy).Contents (Elt F)),
    binary main_v14 main_v18 main_v19 (mulf : (⟨S262144x6x64, .f32⟩ : BufTy).Contents (Elt F) → (⟨S262144x6x64, .f32⟩ : BufTy).Contents (Elt F) → (⟨S262144x6x64, .f32⟩ : BufTy).Contents (Elt F)),
    binary main_v17 main_v19 main_v20 (subf : (⟨S262144x6x64, .f32⟩ : BufTy).Contents (Elt F) → (⟨S262144x6x64, .f32⟩ : BufTy).Contents (Elt F) → (⟨S262144x6x64, .f32⟩ : BufTy).Contents (Elt F)),
    unary main_v8 main_v21 (broadcastInDim S262144x6x64 ![0, 1, 2] bcast_S1x6x1_S262144x6x64_0_1_2 : (⟨S1x6x1, .f32⟩ : BufTy).Contents (Elt F) → (⟨S262144x6x64, .f32⟩ : BufTy).Contents (Elt F)),
    binary main_v20 main_v21 main_v22 (subf : (⟨S262144x6x64, .f32⟩ : BufTy).Contents (Elt F) → (⟨S262144x6x64, .f32⟩ : BufTy).Contents (Elt F) → (⟨S262144x6x64, .f32⟩ : BufTy).Contents (Elt F)),
    nullary main_cst_2 (constant S_ .f32 0x00000000#32),
    unary main_cst_2 main_v23 (broadcastInDim S262144x6x64 ![] bcast_S_S262144x6x64 : (⟨S_, .f32⟩ : BufTy).Contents (Elt F) → (⟨S262144x6x64, .f32⟩ : BufTy).Contents (Elt F)),
    binary main_v22 main_v23 main_v24 (cmpf .ogt : (⟨S262144x6x64, .f32⟩ : BufTy).Contents (Elt F) → (⟨S262144x6x64, .f32⟩ : BufTy).Contents (Elt F) → (⟨S262144x6x64, .i1⟩ : BufTy).Contents (Elt F)),
    unary main_v24 main_v25 (uitofp .f32 : (⟨S262144x6x64, .i1⟩ : BufTy).Contents (Elt F) → (⟨S262144x6x64, .f32⟩ : BufTy).Contents (Elt F)),
    reshape main_v25 main_v26 rfl shapeCasts_S262144x6x64_S262144x384 ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., nullary_bufs_sub .., unary_bufs_sub .., unary_bufs_sub .., unary_bufs_sub .., unary_bufs_sub .., binary_bufs_sub .., unary_bufs_sub .., unary_bufs_sub .., binary_bufs_sub .., unary_bufs_sub .., unary_bufs_sub .., unary_bufs_sub .., binary_bufs_sub .., nullary_bufs_sub .., unary_bufs_sub .., binary_bufs_sub .., unary_bufs_sub .., unary_bufs_sub .., binary_bufs_sub .., binary_bufs_sub .., unary_bufs_sub .., binary_bufs_sub .., binary_bufs_sub .., unary_bufs_sub .., binary_bufs_sub .., nullary_bufs_sub .., unary_bufs_sub .., binary_bufs_sub .., unary_bufs_sub .., reshape_bufs_sub ..⟩

/-- An array over samples and channels, [262144, 6], repeated for the 64 neurons of each channel. -/
def overNeurons (x : FVec F S262144x6 .f32) : FVec F S262144x6x64 .f32 :=
  broadcastInDim S262144x6x64 ![0, 1, 2] bcast_S262144x6x1_S262144x6x64_0_1_2 (broadcastInDim S262144x6x1 ![0, 1] bcast_S262144x6_S262144x6x1_0_1 x)

/-- An array over channels and neurons, [6, 64], repeated for every sample. -/
def overSamples (W : FVec F S6x64 .f32) : FVec F S262144x6x64 .f32 :=
  broadcastInDim S262144x6x64 ![0, 1, 2] bcast_S1x6x64_S262144x6x64_0_1_2 (broadcastInDim S1x6x64 ![1, 2] bcast_S6x64_S1x6x64_1_2 W)

/-- A table over the six channels, repeated for every sample and every neuron of the channel. -/
def byChannel (t : FVec F S6 .f32) : FVec F S262144x6x64 .f32 :=
  broadcastInDim S262144x6x64 ![0, 1, 2] bcast_S1x6x1_S262144x6x64_0_1_2 (broadcastInDim S1x6x1 ![1] bcast_S6_S1x6x1_1 t)

/-- The number 0 at every neuron. -/
def zeros : FVec F S262144x6x64 .f32 := broadcastInDim S262144x6x64 ![] bcast_S_S262144x6x64 (constant S_ .f32 0x00000000#32)

/-- One leaky-integrate-and-fire step, neuron by neuron, of arrays already spread to the neurons' shape: the current
    X·Wn + Bn, the reset indicator [v − θ > 0], the new potential β·v + current − reset·θ, and the spike [new − θ > 0]. -/
def step (X Wn Bn β θ v : FVec F S262144x6x64 .f32) : FVec F S262144x6x64 .f32 :=
  uitofp .f32 (cmpf .ogt (subf (subf (addf (mulf β v) (addf (mulf X Wn) Bn)) (mulf (uitofp .f32 (cmpf .ogt (subf v θ) zeros)) θ)) θ) zeros)

/-- What the operations compose to, as a function of the four arguments: the step of x, W, b spread over the neurons, of the
    decay factors and the thresholds by channel, and of the potentials v, recast to [262144, 384]. -/
def result (x : FVec F S262144x6 .f32) (W b : FVec F S6x64 .f32) (v : FVec F S262144x6x64 .f32) : FVec F S262144x384 .f32 :=
  shapeCast S262144x384
    (step (overNeurons x) (overSamples W) (overSamples b) (byChannel fun i => FloatOps.ofBits .f32 (lit0 (S6.rowMajor i)))
      (byChannel (constant S6 .f32 0x3F800000#32)) v)
    shapeCasts_S262144x6x64_S262144x384

/-- On every device, for any float values, from any memory with zero counters: every weakly fair execution of the entry
    function terminates with the result array at `result` of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v26) = result (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v26).trans (by after_results_simp <;> rfl),
      (h c main_arg0).trans (by after_results_simp <;> rfl),
      (h c main_arg1).trans (by after_results_simp <;> rfl),
      (h c main_arg2).trans (by after_results_simp <;> rfl),
      (h c main_arg3).trans (by after_results_simp <;> rfl)⟩)
    (run_seq scopedRefs_eq scopedSems_eq defs main (fun _ => ops) main_eq (fun _ => ops_sub) m ρ)

end Cert.ReferenceIdeal.RefRun

end
-- ==== Proof.RefValue.lean ====
/-
  The reference's value is the specification. Read at entry (a, f) of the result: the last recast keeps the row-major
  position, (a·6 + f/64)·64 + f%64 = a·384 + f, so the entry is the spike array's at neuron (a, f/64, f%64); there every
  operation of the step acts on that one neuron; and each spread array holds, at that neuron, its source's entry at the
  coordinates it was spread from: x at (a, f/64), W and b at (f/64, f%64), the decay factor and the threshold of channel f/64.
-/
import proofs.«121833_j77000173683381_2_alg».proof.Proof.RefRun
import proofs.«121833_j77000173683381_2_alg».proof.Proof.Spike
import Idealize.ShloMosaic.Lib.Pipeline.Value

noncomputable section

namespace Cert.ReferenceIdeal.RefValue

open Cert.ReferenceIdeal Cert.ReferenceIdeal.Gen Cert.ReferenceIdeal.RefRun Idealize.ShloMosaic Idealize.ShloMosaic.ValueIdx
open Cert.Spike (fire beta thr chan cell)

/-- The decay factors' table is the specification's. -/
theorem lit0_eq (c : Fin 6) : lit0 c = Cert.Spike.betaBits c := by
  fin_cases c <;> rfl

/-- The table's entry at channel c, found through the channel's row-major position in a one-axis array, is β of c. -/
theorem beta_eq (c : Fin 6) : FloatOps.ofBits (F := Ideal) .f32 (lit0 (S6.rowMajor (ix1 c))) = beta c := by
  have e : S6.rowMajor (ix1 c) = c := Fin.ext (Shape.rowMajor_val_one (ix1 c))
  rw [e, lit0_eq]; rfl

/-- The sample-and-channel array spread over the neurons holds, at neuron (a, c, p), its entry (a, c). -/
theorem overNeurons_apply (x : FVec Ideal S262144x6 .f32) (a : Fin 262144) (c : Fin 6) (p : Fin 64) :
    overNeurons x (ix3 a c p) = x (ix2 a c) := by
  unfold overNeurons
  refine (broadcastInDim_apply _ _ _ (ix3 a c p) (ix3 a c (0 : Fin 1)) (fun d => ?_)).trans ?_
  · match d with
    | ⟨0, _⟩ => show a.val = if (262144 : Nat) = 1 then 0 else a.val; rw [if_neg (by decide)]
    | ⟨1, _⟩ => show c.val = if (6 : Nat) = 1 then 0 else c.val; rw [if_neg (by decide)]
    | ⟨2, _⟩ => show 0 = if (1 : Nat) = 1 then 0 else p.val; rw [if_pos rfl]
  · refine broadcastInDim_apply _ _ x (ix3 a c (0 : Fin 1)) (ix2 a c) (fun d => ?_)
    match d with
    | ⟨0, _⟩ => show a.val = if (262144 : Nat) = 1 then 0 else a.val; rw [if_neg (by decide)]
    | ⟨1, _⟩ => show c.val = if (6 : Nat) = 1 then 0 else c.val; rw [if_neg (by decide)]

/-- The channel-and-neuron array spread over the samples holds, at neuron (a, c, p), its entry (c, p). -/
theorem overSamples_apply (W : FVec Ideal S6x64 .f32) (a : Fin 262144) (c : Fin 6) (p : Fin 64) :
    overSamples W (ix3 a c p) = W (ix2 c p) := by
  unfold overSamples
  refine (broadcastInDim_apply _ _ _ (ix3 a c p) (ix3 (0 : Fin 1) c p) (fun d => ?_)).trans ?_
  · match d with
    | ⟨0, _⟩ => show 0 = if (1 : Nat) = 1 then 0 else a.val; rw [if_pos rfl]
    | ⟨1, _⟩ => show c.val = if (6 : Nat) = 1 then 0 else c.val; rw [if_neg (by decide)]
    | ⟨2, _⟩ => show p.val = if (64 : Nat) = 1 then 0 else p.val; rw [if_neg (by decide)]
  · refine broadcastInDim_apply _ _ W (ix3 (0 : Fin 1) c p) (ix2 c p) (fun d => ?_)
    match d with
    | ⟨0, _⟩ => show c.val = if (6 : Nat) = 1 then 0 else c.val; rw [if_neg (by decide)]
    | ⟨1, _⟩ => show p.val = if (64 : Nat) = 1 then 0 else p.val; rw [if_neg (by decide)]

/-- A channel table spread over samples and neurons holds, at neuron (a, c, p), its entry c. -/
theorem byChannel_apply (t : FVec Ideal S6 .f32) (a : Fin 262144) (c : Fin 6) (p : Fin 64) :
    byChannel t (ix3 a c p) = t (ix1 c) := by
  unfold byChannel
  refine (broadcastInDim_apply _ _ _ (ix3 a c p) (ix3 (0 : Fin 1) c (0 : Fin 1)) (fun d => ?_)).trans ?_
  · match d with
    | ⟨0, _⟩ => show 0 = if (1 : Nat) = 1 then 0 else a.val; rw [if_pos rfl]
    | ⟨1, _⟩ => show c.val = if (6 : Nat) = 1 then 0 else c.val; rw [if_neg (by decide)]
    | ⟨2, _⟩ => show 0 = if (1 : Nat) = 1 then 0 else p.val; rw [if_pos rfl]
  · refine broadcastInDim_apply _ _ t (ix3 (0 : Fin 1) c (0 : Fin 1)) (ix1 c) (fun d => ?_)
    match d with
    | ⟨0, _⟩ => show c.val = if (6 : Nat) = 1 then 0 else c.val; rw [if_neg (by decide)]

/-- The step acts neuron by neuron: at neuron k it is one neuron's step of the six arrays' entries at k. -/
theorem step_apply (X Wn Bn β θ v : FVec Ideal S262144x6x64 .f32) (k : S262144x6x64.Idx) :
    step X Wn Bn β θ v k = fire (X k) (Wn k) (Bn k) (β k) (θ k) (v k) := rfl

/-- The reference's value at entry (a, f): the spike of sample a's neuron f % 64 of channel f / 64. -/
theorem result_apply (x : FVec Ideal S262144x6 .f32) (W b : FVec Ideal S6x64 .f32) (v : FVec Ideal S262144x6x64 .f32)
    (a : Fin 262144) (f : Fin 384) :
    result x W b v (ix2 a f) = fire (x (ix2 a (chan f))) (W (ix2 (chan f) (cell f))) (b (ix2 (chan f) (cell f))) (beta (chan f)) thr
      (v (ix3 a (chan f) (cell f))) := by
  unfold result
  refine (shapeCast_apply _ _ (ix2 a f) (ix3 a (chan f) (cell f)) ?_).trans ?_
  · rw [Shape.rowMajor_val_three, Shape.rowMajor_val_two]
    show (a.val * 6 + f.val / 64) * 64 + f.val % 64 = a.val * 384 + f.val
    have := f.isLt
    omega
  · rw [step_apply, overNeurons_apply, overSamples_apply, overSamples_apply, byChannel_apply, byChannel_apply, beta_eq]
    rfl

/-- The reference's value is the specification, at every entry. -/
theorem result_eq (x : FVec Ideal S262144x6 .f32) (W b : FVec Ideal S6x64 .f32) (v : FVec Ideal S262144x6x64 .f32) :
    result x W b v = Cert.Spike.G x W b v := by
  funext i
  obtain ⟨a, f, rfl⟩ : ∃ (a : Fin 262144) (f : Fin 384), i = ix2 a f := ⟨i 0, i 1, eq_ix2 i⟩
  rw [result_apply, Cert.Spike.G_apply]

end Cert.ReferenceIdeal.RefValue

end
-- ==== Proof.lean ====
/-
  One leaky-integrate-and-fire step of 262144 samples × 6 channels × 64 neurons, as a kernel over a grid of 128 blocks of 2048
  samples against the same step written with whole-array operations.

  Both programs compute, for sample a, channel c and neuron p, the spike
      [ (β_c·v + (x·w + b)) − [v − θ > 0]·θ − θ > 0 ]      with x = x(a, c), w = W(c, p), b = b(c, p), v = v(a, c, p),
  β_c the channel's decay factor (0.9 or 0.85) and θ = 1 — the same operations in the same grouping, so on the extended reals
  the two results are equal without any law of arithmetic and whatever the inputs hold. They differ only in layout: the
  reference works on [262144, 6, 64] and recasts the spikes to [262144, 384] at the end; the kernel works on [2048, 384] blocks
  of arrays the host recast beforehand, reads x's column f / 64 at lane f, and reads its two indicators off a widened word.
  Each side is shown to hold the specification `Cert.Spike.G` at every entry (f ↦ channel f / 64, neuron f % 64): the
  reference through its run (Proof/RefRun.lean, Proof/RefValue.lean), the kernel block by block and then over the cover of
  the array by the 128 blocks (Proof/KernelBlock.lean, Proof/KernelHost.lean, Proof/KernelValue.lean).
  The idealization rewrote nothing, so the kernel's idealized program is its own text read on the extended reals.
-/
import proofs.«121833_j77000173683381_2_alg».proof.Defs
import proofs.«121833_j77000173683381_2_alg».proof.Proof.Gen.Kernel
import proofs.«121833_j77000173683381_2_alg».proof.Proof.Gen.Kernel.Skeleton
import proofs.«121833_j77000173683381_2_alg».proof.Proof.Gen.Kernel.Launch
import proofs.«121833_j77000173683381_2_alg».proof.Proof.Gen.Kernel.Points
import proofs.«121833_j77000173683381_2_alg».proof.Proof.Gen.Kernel.Frame
import proofs.«121833_j77000173683381_2_alg».proof.Proof.Gen.KernelIdeal
import proofs.«121833_j77000173683381_2_alg».proof.Proof.Gen.KernelIdeal.Skeleton
import proofs.«121833_j77000173683381_2_alg».proof.Proof.Gen.KernelIdeal.Launch
import proofs.«121833_j77000173683381_2_alg».proof.Proof.Gen.KernelIdeal.Points
import proofs.«121833_j77000173683381_2_alg».proof.Proof.Gen.KernelIdeal.Frame
import proofs.«121833_j77000173683381_2_alg».proof.Proof.Gen.ReferenceIdeal
import proofs.«121833_j77000173683381_2_alg».proof.Proof.Gen.Pre_finite_inputs
import proofs.«121833_j77000173683381_2_alg».proof.Proof.KernelValue
import proofs.«121833_j77000173683381_2_alg».proof.Proof.RefValue
import Idealize.ShloMosaic.Adequacy
import Idealize.ShloMosaic.Init

noncomputable section

namespace Cert.Proof

open Idealize.ShloMosaic Idealize.SL.Sem

/-- The kernel as printed runs to the end without a fault and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run, with what it says of the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- The idealization rewrote no operation: nothing to preserve. -/
theorem preserves : Cert.preserves_Kernel_KernelIdeal := trivial

/-- On the extended reals, from memories that agree on the four arguments, the kernel's result array and the reference's
    are both the specification of those arguments: the same array. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.RefRun.run (F := Ideal) m' ρ')
  rw [Cert.ReferenceIdeal.RefValue.result_eq, (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
